-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x262144x2 : Shape := ⟨3, ![4, 262144, 2]⟩
abbrev S2x32 : Shape := ⟨2, ![2, 32]⟩
abbrev S32 : Shape := ⟨1, ![32]⟩
abbrev S_ : Shape := ⟨0, ![]⟩

class Facts : Prop where
  bcast_S_S4x262144x2 : S_.BroadcastsInDim S4x262144x2 (![] : Fin 0 → Fin S4x262144x2.rank)
  reducesTo_S4x262144x2_S_d0_1_2 : S4x262144x2.ReducesTo [0, 1, 2] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S4x262144x2 .f32) (main_arg1 : FVec F S2x32 .f32) (main_arg2 : FVec F S32 .f32) : IVec S_ 1 :=
  let main_v0 : FVec F S4x262144x2 .f32 := Host.absf main_arg0
  let main_cst : FVec F S_ .f32 := constant S_ .f32 0x7F800000#32
  let main_v1 : FVec F S4x262144x2 .f32 := broadcastInDim S4x262144x2 ![] bcast_S_S4x262144x2 main_cst
  let main_v2 : IVec S4x262144x2 1 := cmpf .olt main_v0 main_v1
  let main_c : IVec S_ 1 := constantI S_ 1 1#1
  let main_v3 : IVec S_ 1 := (fun x v => Host.reduce IntOp.andi x v reducesTo_S4x262144x2_S_d0_1_2 h_S_) main_v2 main_c
  let main_v4 : FVec F S2x32 .f32 := Host.absf main_arg1
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S4x262144x2 : Shape := ⟨3, ![4, 262144, 2]⟩
abbrev S2x32 : Shape := ⟨2, ![2, 32]⟩
abbrev S32 : Shape := ⟨1, ![32]⟩
abbrev S262144x8 : Shape := ⟨2, ![262144, 8]⟩
abbrev S8 : Shape := ⟨1, ![8]⟩
abbrev S128 : Shape := ⟨1, ![128]⟩
abbrev S1x128 : Shape := ⟨2, ![1, 128]⟩
abbrev S_ : Shape := ⟨0, ![]⟩
abbrev S8x1 : Shape := ⟨2, ![8, 1]⟩
abbrev S8x128 : Shape := ⟨2, ![8, 128]⟩
abbrev S8x128x1 : Shape := ⟨3, ![8, 128, 1]⟩
abbrev S8x128x2 : Shape := ⟨3, ![8, 128, 2]⟩
abbrev S1x32 : Shape := ⟨2, ![1, 32]⟩
abbrev S4x32 : Shape := ⟨2, ![4, 32]⟩
abbrev S262144x128 : Shape := ⟨2, ![262144, 128]⟩
abbrev S2048x8 : Shape := ⟨2, ![2048, 8]⟩
abbrev S2048x128 : Shape := ⟨2, ![2048, 128]⟩
abbrev S4x262144x32 : Shape := ⟨3, ![4, 262144, 32]⟩

abbrev nBuf : Space → Nat
  | .hbm => 121
  | .vmem => 6
  | .smem => 0
  | _ => 0

abbrev bufTy : (tb : Table) → Fin (tcTables nBuf tb) → BufTy
  | .hbm, ⟨0, _⟩ => ⟨S4x262144x2, .f32⟩
  | .hbm, ⟨1, _⟩ => ⟨S2x32, .f32⟩
  | .hbm, ⟨2, _⟩ => ⟨S32, .f32⟩
  | .hbm, ⟨3, _⟩ => ⟨S262144x8, .f32⟩
  | .hbm, ⟨4, _⟩ => ⟨S8, .i32⟩
  | .hbm, ⟨5, _⟩ => ⟨S128, .i32⟩
  | .hbm, ⟨6, _⟩ => ⟨S1x128, .i32⟩
  | .hbm, ⟨7, _⟩ => ⟨S_, .i32⟩
  | .hbm, ⟨8, _⟩ => ⟨S_, .i32⟩
  | .hbm, ⟨9, _⟩ => ⟨S1x128, .i32⟩
  | .hbm, ⟨10, _⟩ => ⟨S1x128, .i32⟩
  | .hbm, ⟨11, _⟩ => ⟨S1x128, .i32⟩
  | .hbm, ⟨12, _⟩ => ⟨S_, .i32⟩
  | .hbm, ⟨13, _⟩ => ⟨S1x128, .i32⟩
  | .hbm, ⟨14, _⟩ => ⟨S1x128, .i1⟩
  | .hbm, ⟨15, _⟩ => ⟨S1x128, .i32⟩
  | .hbm, ⟨16, _⟩ => ⟨S1x128, .i32⟩
  | .hbm, ⟨17, _⟩ => ⟨S_, .i32⟩
  | .hbm, ⟨18, _⟩ => ⟨S1x128, .i32⟩
  | .hbm, ⟨19, _⟩ => ⟨S1x128, .i1⟩
  | .hbm, ⟨20, _⟩ => ⟨S1x128, .i1⟩
  | .hbm, ⟨21, _⟩ => ⟨S_, .i32⟩
  | .hbm, ⟨22, _⟩ => ⟨S1x128, .i32⟩
  | .hbm, ⟨23, _⟩ => ⟨S1x128, .i32⟩
  | .hbm, ⟨24, _⟩ => ⟨S1x128, .i32⟩
  | .hbm, ⟨25, _⟩ => ⟨S8x1, .i32⟩
  | .hbm, ⟨26, _⟩ => ⟨S_, .i32⟩
  | .hbm, ⟨27, _⟩ => ⟨S_, .i32⟩
  | .hbm, ⟨28, _⟩ => ⟨S8x1, .i32⟩
  | .hbm, ⟨29, _⟩ => ⟨S8x1, .i32⟩
  | .hbm, ⟨30, _⟩ => ⟨S8x1, .i32⟩
  | .hbm, ⟨31, _⟩ => ⟨S_, .i32⟩
  | .hbm, ⟨32, _⟩ => ⟨S8x1, .i32⟩
  | .hbm, ⟨33, _⟩ => ⟨S8x1, .i1⟩
  | .hbm, ⟨34, _⟩ => ⟨S8x1, .i32⟩
  | .hbm, ⟨35, _⟩ => ⟨S8x1, .i32⟩
  | .hbm, ⟨36, _⟩ => ⟨S_, .i32⟩
  | .hbm, ⟨37, _⟩ => ⟨S8x1, .i32⟩
  | .hbm, ⟨38, _⟩ => ⟨S8x1, .i1⟩
  | .hbm, ⟨39, _⟩ => ⟨S8x1, .i1⟩
  | .hbm, ⟨40, _⟩ => ⟨S_, .i32⟩
  | .hbm, ⟨41, _⟩ => ⟨S8x1, .i32⟩
  | .hbm, ⟨42, _⟩ => ⟨S8x1, .i32⟩
  | .hbm, ⟨43, _⟩ => ⟨S8x1, .i32⟩
  | .hbm, ⟨44, _⟩ => ⟨S8x128, .i32⟩
  | .hbm, ⟨45, _⟩ => ⟨S8x128, .i32⟩
  | .hbm, ⟨46, _⟩ => ⟨S8x128, .i1⟩
  | .hbm, ⟨47, _⟩ => ⟨S8x128, .f32⟩
  | .hbm, ⟨48, _⟩ => ⟨S8x1, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S8x1, .i32⟩
  | .hbm, ⟨56, _⟩ => ⟨S8x1, .i32⟩
  | .hbm, ⟨57, _⟩ => ⟨S_, .i32⟩
  | .hbm, ⟨58, _⟩ => ⟨S8x1, .i32⟩
  | .hbm, ⟨59, _⟩ => ⟨S8x1, .i1⟩
  | .hbm, ⟨60, _⟩ => ⟨S_, .i32⟩
  | .hbm, ⟨61, _⟩ => ⟨S8x1, .i32⟩
  | .hbm, ⟨62, _⟩ => ⟨S8x1, .i1⟩
  | .hbm, ⟨63, _⟩ => ⟨S_, .i32⟩
  | .hbm, ⟨64, _⟩ => ⟨S_, .i1⟩
  | .hbm, ⟨65, _⟩ => ⟨S8x1, .i1⟩
  | .hbm, ⟨66, _⟩ => ⟨S8x1, .i1⟩
  | .hbm, ⟨67, _⟩ => ⟨S8x1, .i1⟩
  | .hbm, ⟨68, _⟩ => ⟨S8x1, .i32⟩
  | .hbm, ⟨69, _⟩ => ⟨S8x1, .i32⟩
  | .hbm, ⟨70, _⟩ => ⟨S8x1, .i32⟩
  | .hbm, ⟨71, _⟩ => ⟨S1x128, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S1x128, .i32⟩
  | .hbm, ⟨79, _⟩ => ⟨S1x128, .i32⟩
  | .hbm, ⟨80, _⟩ => ⟨S_, .i32⟩
  | .hbm, ⟨81, _⟩ => ⟨S1x128, .i32⟩
  | .hbm, ⟨82, _⟩ => ⟨S1x128, .i1⟩
  | .hbm, ⟨83, _⟩ => ⟨S_, .i32⟩
  | .hbm, ⟨84, _⟩ => ⟨S1x128, .i32⟩
  | .hbm, ⟨85, _⟩ => ⟨S1x128, .i1⟩
  | .hbm, ⟨86, _⟩ => ⟨S_, .i32⟩
  | .hbm, ⟨87, _⟩ => ⟨S_, .i1⟩
  | .hbm, ⟨88, _⟩ => ⟨S1x128, .i1⟩
  | .hbm, ⟨89, _⟩ => ⟨S1x128, .i1⟩
  | .hbm, ⟨90, _⟩ => ⟨S1x128, .i1⟩
  | .hbm, ⟨91, _⟩ => ⟨S1x128, .i32⟩
  | .hbm, ⟨92, _⟩ => ⟨S1x128, .i32⟩
  | .hbm, ⟨93, _⟩ => ⟨S1x128, .i32⟩
  | .hbm, ⟨94, _⟩ => ⟨S_, .i32⟩
  | .hbm, ⟨95, _⟩ => ⟨S8x1, .i32⟩
  | .hbm, ⟨96, _⟩ => ⟨S8x1, .i1⟩
  | .hbm, ⟨97, _⟩ => ⟨S_, .i32⟩
  | .hbm, ⟨98, _⟩ => ⟨S8x1, .i32⟩
  | .hbm, ⟨99, _⟩ => ⟨S8x1, .i32⟩
  | .hbm, ⟨100, _⟩ => ⟨S8x1, .i32⟩
  | .hbm, ⟨101, _⟩ => ⟨S_, .i32⟩
  | .hbm, ⟨102, _⟩ => ⟨S1x128, .i32⟩
  | .hbm, ⟨103, _⟩ => ⟨S1x128, .i1⟩
  | .hbm, ⟨104, _⟩ => ⟨S_, .i32⟩
  | .hbm, ⟨105, _⟩ => ⟨S1x128, .i32⟩
  | .hbm, ⟨106, _⟩ => ⟨S1x128, .i32⟩
  | .hbm, ⟨107, _⟩ => ⟨S1x128, .i32⟩
  | .hbm, ⟨108, _⟩ => ⟨S8x128, .i32⟩
  | .hbm, ⟨109, _⟩ => ⟨S8x128, .i32⟩
  | .hbm, ⟨110, _⟩ => ⟨S8x128x1, .i32⟩
  | .hbm, ⟨111, _⟩ => ⟨S8x128x1, .i32⟩
  | .hbm, ⟨112, _⟩ => ⟨S8x128x2, .i32⟩
  | .hbm, ⟨113, _⟩ => ⟨S8x128, .f32⟩
  | .hbm, ⟨114, _⟩ => ⟨S8x128, .f32⟩
  | .hbm, ⟨115, _⟩ => ⟨S1x32, .f32⟩
  | .hbm, ⟨116, _⟩ => ⟨S4x32, .f32⟩
  | .hbm, ⟨117, _⟩ => ⟨S128, .f32⟩
  | .hbm, ⟨118, _⟩ => ⟨S1x128, .f32⟩
  | .hbm, ⟨119, _⟩ => ⟨S262144x128, .f32⟩
  | .hbm, ⟨120, _⟩ => ⟨S4x262144x32, .f32⟩
  | .local _ .vmem, ⟨0, _⟩ => ⟨S2048x8, .f32⟩
  | .local _ .vmem, ⟨1, _⟩ => ⟨S2048x8, .f32⟩
  | .local _ .vmem, ⟨2, _⟩ => ⟨S8x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | _, _ => ⟨S4x262144x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_c_1 : Ref sig .tc := ⟨.hbm, 49, rfl⟩
abbrev main_call2_v0 : Ref sig .tc := ⟨.hbm, 50, rfl⟩
abbrev main_call2_c : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_c_1 : Ref sig .tc := ⟨.hbm, 57, rfl⟩
abbrev main_call2_v5 : Ref sig .tc := ⟨.hbm, 58, rfl⟩
abbrev main_call2_v6 : Ref sig .tc := ⟨.hbm, 59, rfl⟩
abbrev main_call2_c_2 : Ref sig .tc := ⟨.hbm, 60, rfl⟩
abbrev main_call2_v7 : Ref sig .tc := ⟨.hbm, 61, rfl⟩
abbrev main_call2_v8 : Ref sig .tc := ⟨.hbm, 62, rfl⟩
abbrev main_call2_c_3 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_v12 : Ref sig .tc := ⟨.hbm, 70, rfl⟩
abbrev main_v13 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v14 : Ref sig .tc := ⟨.hbm, 93, rfl⟩
abbrev main_c_3 : Ref sig .tc := ⟨.hbm, 94, rfl⟩
abbrev main_v15 : Ref sig .tc := ⟨.hbm, 95, rfl⟩
abbrev main_v16 : Ref sig .tc := ⟨.hbm, 96, rfl⟩
abbrev main_c_4 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_c_5 : Ref sig .tc := ⟨.hbm, 101, rfl⟩
abbrev main_v20 : Ref sig .tc := ⟨.hbm, 102, rfl⟩
abbrev main_v21 : Ref sig .tc := ⟨.hbm, 103, rfl⟩
abbrev main_c_6 : Ref sig .tc := ⟨.hbm, 104, rfl⟩
abbrev main_v22 : Ref sig .tc := ⟨.hbm, 105, rfl⟩
abbrev main_v23 : Ref sig .tc := ⟨.hbm, 106, rfl⟩
abbrev main_v24 : Ref sig .tc := ⟨.hbm, 107, rfl⟩
abbrev main_v25 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x262144x2_S262144x8 : S4x262144x2.ShapeCasts S262144x8
  bcast_S128_S1x128_1 : S128.BroadcastsInDim S1x128 (![1] : Fin 1 → Fin S1x128.rank)
  bcast_S_S1x128 : S_.BroadcastsInDim S1x128 (![] : Fin 0 → Fin S1x128.rank)
  bcast_S8_S8x1_0 : S8.BroadcastsInDim S8x1 (![0] : Fin 1 → Fin S8x1.rank)
  bcast_S_S8x1 : S_.BroadcastsInDim S8x1 (![] : Fin 0 → Fin S8x1.rank)
  bcast_S1x128_S8x128_0_1 : S1x128.BroadcastsInDim S8x128 (![0, 1] : Fin 2 → Fin S8x128.rank)
  bcast_S8x1_S8x128_0_1 : S8x1.BroadcastsInDim S8x128 (![0, 1] : Fin 2 → Fin S8x128.rank)
  bcast_S8x128_S8x128x1_0_1 : S8x128.BroadcastsInDim S8x128x1 (![0, 1] : Fin 2 → Fin S8x128x1.rank)
  concatenates_S8x128x1_S8x128x1_S8x128x2_d2 : Shape.Concatenates [S8x128x1, S8x128x1] S8x128x2 2
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S262144x128_S4x262144x32 : S262144x128.ShapeCasts S4x262144x32
  gather_S2x32_S8x128x2_S8x128_n_01_n_n_01_2_11_wf : GatherDims.WF S2x32 S8x128x2 S8x128 [] [0, 1] [] [0, 1] [] 2 ![1, 1]
  dot_S2048x8_S8x128_S2048x128_1_0_0_1_n_n_wf : DotDims.WF S2048x8 S8x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x8.size a ≤ S262144x8.size a
  hwx0_0 : ∀ i : grid0.Coords, EltTy.bits .f32 = 32 ∨ (Rect.block (s := S262144x8) S2048x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S262144x128.size a
  hwx0_3 : ∀ i : grid0.Coords, EltTy.bits .f32 = 32 ∨ (Rect.block (s := S262144x128) S2048x128.size (cc0_transform_3 i) (hinb0_3 i)).WholeWords (EltTy.packing .f32)

variable [Facts₀]

def gather_S2x32_S8x128x2_S8x128_n_01_n_n_01_2_11 : GatherDims S2x32 S8x128x2 S8x128 where
  offsetDims := []
  collapsedSliceDims := [0, 1]
  operandBatchingDims := []
  startIndicesBatchingDims := []
  startIndexMap := [0, 1]
  indexVectorDim := 2
  sliceSizes := ![1, 1]
  wf := gather_S2x32_S8x128x2_S8x128_n_01_n_n_01_2_11_wf
def dot_S2048x8_S8x128_S2048x128_1_0_0_1_n_n : DotDims S2048x8 S8x128 S2048x128 where
  lhsContracting := [1]
  rhsContracting := [0]
  lhsNonContracting := [0]
  rhsNonContracting := [1]
  lhsBatch := []
  rhsBatch := []
  wf := dot_S2048x8_S8x128_S2048x128_1_0_0_1_n_n_wf

abbrev win0_0 : Pipeline.Window sig grid0 :=
  Pipeline.Window.ofSpec (Memref.whole main_v0) S2048x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x262144x2 : Shape := ⟨3, ![4, 262144, 2]⟩
abbrev S2x32 : Shape := ⟨2, ![2, 32]⟩
abbrev S32 : Shape := ⟨1, ![32]⟩
abbrev S4x262144x32 : Shape := ⟨3, ![4, 262144, 32]⟩
abbrev S1x1x32 : Shape := ⟨3, ![1, 1, 32]⟩

abbrev nBuf : Space → Nat
  | .hbm => 8
  | .vmem => 0
  | .smem => 0
  | _ => 0

abbrev bufTy : (tb : Table) → Fin (tcTables nBuf tb) → BufTy
  | .hbm, ⟨0, _⟩ => ⟨S4x262144x2, .f32⟩
  | .hbm, ⟨1, _⟩ => ⟨S2x32, .f32⟩
  | .hbm, ⟨2, _⟩ => ⟨S32, .f32⟩
  | .hbm, ⟨3, _⟩ => ⟨S4x262144x32, .f32⟩
  | .hbm, ⟨4, _⟩ => ⟨S1x1x32, .f32⟩
  | .hbm, ⟨5, _⟩ => ⟨S4x262144x32, .f32⟩
  | .hbm, ⟨6, _⟩ => ⟨S4x262144x32, .f32⟩
  | .hbm, ⟨7, _⟩ => ⟨S4x262144x32, .f32⟩
  | _, _ => ⟨S4x262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S4x262144x32_0_1_2 : S1x1x32.BroadcastsInDim S4x262144x32 (![0, 1, 2] : Fin 3 → Fin S4x262144x32.rank)
  dot_S4x262144x2_S2x32_S4x262144x32_2_0_01_1_n_n_wf : DotDims.WF S4x262144x2 S2x32 S4x262144x32 [2] [0] [0, 1] [1] [] []

variable [Facts₀]

def dot_S4x262144x2_S2x32_S4x262144x32_2_0_01_1_n_n : DotDims S4x262144x2 S2x32 S4x262144x32 where
  lhsContracting := [2]
  rhsContracting := [0]
  lhsNonContracting := [0, 1]
  rhsNonContracting := [1]
  lhsBatch := []
  rhsBatch := []
  wf := dot_S4x262144x2_S2x32_S4x262144x32_2_0_01_1_n_n_wf

class Facts : Prop extends Facts₀ where

variable [Facts]
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.Payload.lean ====
/-
  The kernel body's stored value, read at one entry.

  The body loads a block X of 2048 rows by 8 columns, the 8 by 128 matrix S and the 1 by 128 row B, and stores
  sin (X S + B): entry (p, q) of what it stores is the sine of the sum over the eight columns k of X (p, k) S (k, q),
  plus B (0, q).  The two casts of a block to its own shape are the identity, the matrix product starts from the zero
  accumulator, and the row B is repeated down the 2048 rows.
-/
import proofs.«163815_g5892695130287_cont_9to1c4b_175_2_alg».proof.Proof.Gen.KernelIdeal.Skeleton
import proofs.«163815_g5892695130287_cont_9to1c4b_175_2_alg».proof.Proof.LibMatmul
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-- The product contracts the left operand's columns against the right operand's rows: its left index at entry i and
    contraction index k is (row of i, k) … -/
theorem lhs_row (i : S2048x128.Idx) (k : dot_S2048x8_S8x128_S2048x128_1_0_0_1_n_n.contr.Idx) :
    (dot_S2048x8_S8x128_S2048x128_1_0_0_1_n_n.lhsIdx i k (0 : Fin 2)).val = (i (0 : Fin 2)).val := by
  unfold DotDims.lhsIdx
  rw [dif_neg (show ¬(0 : Fin S2048x8.rank) ∈ dot_S2048x8_S8x128_S2048x128_1_0_0_1_n_n.lhsBatch by decide),
    dif_pos (show (0 : Fin S2048x8.rank) ∈ dot_S2048x8_S8x128_S2048x128_1_0_0_1_n_n.lhsNonContracting by decide)]
  rfl

/-- … and its right index is (k, column of i). -/
theorem rhs_col (i : S2048x128.Idx) (k : dot_S2048x8_S8x128_S2048x128_1_0_0_1_n_n.contr.Idx) :
    (dot_S2048x8_S8x128_S2048x128_1_0_0_1_n_n.rhsIdx i k (1 : Fin 2)).val = (i (1 : Fin 2)).val := by
  unfold DotDims.rhsIdx
  rw [dif_neg (show ¬(1 : Fin S8x128.rank) ∈ dot_S2048x8_S8x128_S2048x128_1_0_0_1_n_n.rhsBatch by decide),
    dif_pos (show (1 : Fin S8x128.rank) ∈ dot_S2048x8_S8x128_S2048x128_1_0_0_1_n_n.rhsNonContracting by decide)]
  rfl

/-- Entry (p, q) of the stored block: sin (Σ k, X (p, k) · S (k, q) + B (0, q)). -/
theorem stored_apply (X : FVec Ideal S2048x8 .f32) (S : FVec Ideal S8x128 .f32) (B : FVec Ideal S1x128 .f32)
    (p : Fin 2048) (q : Fin 128) :
    k0_pay1 (F := Ideal) X S B (ix2 p q)
      = Ideal.sin ((∑ k : Fin 8, X (ix2 p k) * S (ix2 k q)) + B (ix2 (0 : Fin 1) q)) := by
  unfold k0_pay1
  simp only [shapeCast_self]
  show Ideal.sin (FloatOps.matmul dot_S2048x8_S8x128_S2048x128_1_0_0_1_n_n none X S
        (constant (F := Ideal) S2048x128 .f32 0x00000000#32) (ix2 p q)
      + broadcastTo S2048x128 B broadcasts_S1x128_S2048x128 (ix2 p q)) = _
  rw [Cert.LibMatmul.matmul_zero_ix2 dot_S2048x8_S8x128_S2048x128_1_0_0_1_n_n rfl rfl lhs_row
      (fun i k => dot_S2048x8_S8x128_S2048x128_1_0_0_1_n_n.lhsIdx_val_of_single rfl i k)
      (fun i k => dot_S2048x8_S8x128_S2048x128_1_0_0_1_n_n.rhsIdx_val_of_single rfl i k) rhs_col,
    broadcastTo_1b_ab_apply]

end Cert.KernelIdeal.Body

end
-- ==== Proof.Blocks.lean ====
/-
  The array the launch leaves behind, as one function of the three arrays it reads.

  The launch runs over 128 grid points.  At point t the body reads rows 2048 t … 2048 t + 2047 of the packed coordinate
  array X (262144 rows of 8), the whole 8 by 128 matrix S and the whole 1 by 128 row B, and writes back rows
  2048 t … 2048 t + 2047 of the output (262144 rows of 128).  So the block written back at t is the block of rows of
  ONE function of (X, S, B): entry (r, l) is sin (Σ k, X (r, k) · S (k, l) + B (0, l)).  The 128 blocks tile the output's
  rows (row r lies in block r / 2048), hence the output array ends up equal to that function everywhere.
-/
import proofs.«163815_g5892695130287_cont_9to1c4b_175_2_alg».proof.Proof.Gen.KernelIdeal.Frame
import proofs.«163815_g5892695130287_cont_9to1c4b_175_2_alg».proof.Proof.Payload
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- Entry (r, l) of the output: the sine of row r of X against column l of S, plus B at l. -/
def entry (X : S262144x8.Idx → EReal) (S : S8x128.Idx → EReal) (B : S1x128.Idx → EReal) (r : Fin 262144) (l : Fin 128) : EReal :=
  Ideal.sin ((∑ k : Fin 8, X (ix2 r k) * S (ix2 k l)) + B (ix2 (0 : Fin 1) l))

/-- The whole output array as a function of its index. -/
def rowsOf (X : S262144x8.Idx → EReal) (S : S8x128.Idx → EReal) (B : S1x128.Idx → EReal) : S262144x128.Idx → EReal :=
  fun i => entry X S B ⟨(i 0).val, idx2_lt0 i⟩ ⟨(i 1).val, idx2_lt1 i⟩

theorem rowsOf_ix2 (X : S262144x8.Idx → EReal) (S : S8x128.Idx → EReal) (B : S1x128.Idx → EReal) (r : Fin 262144) (l : Fin 128) :
    rowsOf X S B (ix2 r l) = entry X S B r l := rfl

variable (m : (ℓ : Loc nD τ sig) → Buf (Elt Ideal) ℓ)

theorem zero_offsets : (![0, 0] : Fin 2 → Nat) = fun _ => 0 := funext fun a => by fin_cases a <;> rfl

/-- The four windows' block indices at grid point t: the coordinate block and the output block are block t along the rows;
    the matrix and the row are always their one block. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the coordinate block at point t is row 2048 t + p of the array. -/
theorem read_rows (c : Dev nD) (t : Fin cfg0.N) (p : Fin 2048) (k : Fin 8) (r : Fin 262144) (hr : r.val = t.val * 2048 + p.val) :
    iblk m c 0 t (ix2 p k) = V m c main_v0 (ix2 r k) := by
  obtain ⟨e0, e1, -⟩ := block_index t
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 2048 + 1 * p.val = r.val; omega
  | ⟨1, _⟩ => show win0_0.index t (1 : Fin 2) * 8 + 1 * k.val = k.val; omega

/-- The matrix block is the whole matrix. -/
theorem read_matrix (c : Dev nD) (t : Fin cfg0.N) (k : Fin 8) (q l : Fin 128) (hl : l.val = q.val) :
    iblk m c 1 t (ix2 k q) = V m c main_v31 (ix2 k l) := by
  obtain ⟨-, -, e2, e3, -⟩ := block_index t
  show V m c main_v31 (((cfg0.win 1).blk t).view.emb (ix2 k q)) = V m c main_v31 (ix2 k l)
  refine congrArg (V m c main_v31) (funext fun a => Fin.ext ?_)
  match a with
  | ⟨0, _⟩ => show win0_1.index t (0 : Fin 2) * 8 + 1 * k.val = k.val; omega
  | ⟨1, _⟩ => show win0_1.index t (1 : Fin 2) * 128 + 1 * q.val = l.val; omega

/-- The row block is the whole row. -/
theorem read_row (c : Dev nD) (t : Fin cfg0.N) (q l : Fin 128) (hl : l.val = q.val) :
    iblk m c 2 t (ix2 (0 : Fin 1) q) = V m c main_v35 (ix2 (0 : Fin 1) l) := by
  obtain ⟨-, -, -, -, e4, e5, -⟩ := block_index t
  show V m c main_v35 (((cfg0.win 2).blk t).view.emb (ix2 (0 : Fin 1) q)) = V m c main_v35 (ix2 (0 : Fin 1) l)
  refine congrArg (V m c main_v35) (funext fun a => Fin.ext ?_)
  match a with
  | ⟨0, _⟩ => show win0_2.index t (0 : Fin 2) * 1 + 1 * 0 = 0; omega
  | ⟨1, _⟩ => show win0_2.index t (1 : Fin 2) * 128 + 1 * q.val = l.val; omega

/-- What point t writes back is block t of the one function. -/
theorem flushed_eq (c : Dev nD) (t : Fin cfg0.N) :
    (dats m 0 c).flushed 3 t
      = ((cfg0.win 3).blk t).view.read (Elt Ideal) (rowsOf (V m c main_v0) (V m c main_v31) (V m c main_v35)) := by
  show (cfg0.win 3).cut (grid0.coords t) ((dats m 0 c).after 3 t) = _
  rw [after0_3]
  unfold out0_3
  rw [View.canon_unit_zero zero_offsets]
  simp only [View.ld_unit_zero (S := S2048x8) zero_offsets, View.ld_unit_zero (S := S8x128) zero_offsets,
    View.ld_unit_zero (S := S1x128) zero_offsets]
  obtain ⟨-, -, -, -, -, -, e6, e7⟩ := block_index t
  have hN : grid0.N = 128 := N_0
  have ht : t.val < 128 := by have h : t.val < grid0.N := t.isLt; omega
  funext y
  rw [View.read_apply]
  have hy0 : (y 0).val < 2048 := (y 0).isLt
  have hy1 : (y 1).val < 128 := (y 1).isLt
  -- the entry's coordinates in the block, and in the array
  obtain ⟨p, hp⟩ : ∃ p : Fin 2048, p.val = (y 0).val := ⟨⟨(y 0).val, hy0⟩, rfl⟩
  obtain ⟨q, hq⟩ : ∃ q : Fin 128, q.val = (y 1).val := ⟨⟨(y 1).val, hy1⟩, rfl⟩
  obtain ⟨r, hr⟩ : ∃ r : Fin 262144, r.val = t.val * 2048 + p.val := ⟨⟨t.val * 2048 + p.val, by omega⟩, rfl⟩
  have hx : (cfg0.win 3).xinj (grid0.coords t) y = ix2 p q :=
    funext fun a => Fin.ext (by
      match a with
      | ⟨0, _⟩ => exact hp.symm
      | ⟨1, _⟩ => exact hq.symm)
  have he : ((cfg0.win 3).blk t).view.emb y = ix2 r q :=
    funext fun a => Fin.ext (by
      match a with
      | ⟨0, _⟩ => show win0_3.index t (0 : Fin 2) * 2048 + 1 * (y 0).val = r.val; omega
      | ⟨1, _⟩ => show win0_3.index t (1 : Fin 2) * 128 + 1 * (y 1).val = q.val; omega)
  show k0_pay1 (iblk m c 0 t) (iblk m c 1 t) (iblk m c 2 t) ((cfg0.win 3).xinj (grid0.coords t) y) = _
  rw [hx, he, rowsOf_ix2]
  refine (Body.stored_apply (iblk m c 0 t) (iblk m c 1 t) (iblk m c 2 t) p q).trans ?_
  unfold entry
  simp only [read_rows m c t p _ r hr, read_matrix m c t _ q q rfl, read_row m c t q q rfl]
  exact (cast_eq _ _).symm

/-- An index of the output lies in point t's block iff each coordinate lies in the block's range. -/
theorem mem_block (t : Fin cfg0.N) (i : S262144x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v36).slice (win0_3.rect t)).set ↔ _
  rw [View.set_slice_whole, Rect.mem_set_unit]
  exact Iff.rfl

/-- Row r of the output lies in the block of point r / 2048. -/
theorem covered (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  have hN : grid0.N = 128 := N_0
  obtain ⟨t, ht⟩ : ∃ t : Fin cfg0.N, t.val = (i 0).val / 2048 :=
    ⟨⟨(i 0).val / 2048, by show (i 0).val / 2048 < grid0.N; omega⟩, rfl⟩
  obtain ⟨-, -, -, -, -, -, e6, e7⟩ := block_index t
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 128 ≤ (i 1).val ∧ (i 1).val < win0_3.index t (1 : Fin 2) * 128 + 128
    omega

/-- The output array after all 128 points. -/
theorem final (c : Dev nD) :
    (dats m 0 c).arrAt 3 cfg0.N = rowsOf (V m c main_v0) (V m c main_v31) (V m c main_v35) :=
  (dats m 0 c).arrAt_eq_of_cover 3 _ (fun t _ => flushed_eq m c t) covered

end Cert.KernelIdeal.Blocks

end
-- ==== Proof.LibTypedRef.lean ====
/-
  A typed reference's two transports cancel.

  A host operation stated over typed references moves each operand from its buffer's contents to contents at the
  value's type, and the result back.  The two moves are transports along one equation of types, in opposite
  directions, so one after the other is the identity; this holds for any typed reference, with nothing about which
  buffer it is.
-/
import Idealize.ShloMosaic.Lib.StableHlo

namespace Cert.LibTypedRef

open Idealize.ShloMosaic Idealize.ShloMosaic.StableHlo

variable {sig : RefSig} {Val : EltTy → Type} {T : BufTy}

/-- Contents moved to the buffer's type and back are the contents. -/
theorem ofBuf_toBuf (x : TRef sig T) (v : T.Contents Val) : x.ofBuf (x.toBuf v) = v := by
  obtain ⟨r, h, h1, h2⟩ := x
  subst h
  rfl

/-- Contents of the buffer moved to the value's type and back are the contents. -/
theorem toBuf_ofBuf (x : TRef sig T) (v : x.ref.ty.Contents Val) : x.toBuf (x.ofBuf v) = v := by
  obtain ⟨r, h, h1, h2⟩ := x
  subst h
  rfl

end Cert.LibTypedRef
-- ==== Proof.HostPre.lean ====
/-
  The three arrays the launch reads, as functions of the program's three arguments.

  Before the launch the program prepares, from the arguments coords (4 × 262144 × 2), W (2 × 32) and b (32):
  • X (262144 × 8): coords with the same elements in the same order, four consecutive points per row, so that entry
    (r, k) is coordinate k mod 2 of point 4 r + k / 2;
  • S (8 × 128): entry (k, l) is the product of a 0/1 mask — 1 exactly when column l belongs to the same one of the four
    points as row k, that is l / 32 = k / 2 — and W (k mod 2, l mod 32).  The mask is an integer comparison of two
    floor-divisions of iotas turned into a float; the entry of W is fetched by a gather whose two start indices are the
    remainders k mod 2 and l mod 32.  All of that integer arithmetic is on closed terms over 8 × 128 indices and is
    evaluated;
  • B (1 × 128): b repeated four times, entry (0, l) = b (l mod 32).
-/
import proofs.«163815_g5892695130287_cont_9to1c4b_175_2_alg».proof.Proof.Gen.KernelIdeal.Frame
import proofs.«163815_g5892695130287_cont_9to1c4b_175_2_alg».proof.Proof.LibTypedRef
import Idealize.ShloMosaic.Lib.StableHlo.Run
import Idealize.ShloMosaic.Lib.Pipeline.Value
import Idealize.ShloMosaic.Lib.ValueIdx

noncomputable section

namespace Cert.KernelIdeal.HostPre

open Cert.KernelIdeal Cert.KernelIdeal.Gen Idealize.ShloMosaic Idealize.ShloMosaic.TcCoe Idealize.SL.Sem
open Idealize.ShloMosaic.StableHlo Idealize.ShloMosaic.ValueIdx

/-- The gather of one element of a 2 × 32 table per entry of an 8 × 128 result: entry (k, l) is the table at the two start
    indices stored at (k, l, 0) and (k, l, 1), each read signed and clamped into its axis. -/
theorem gather_apply {α : Type} (x : S2x32.Idx → α) (idx : IVec S8x128x2 32) (k : Fin 8) (l : Fin 128) (r : Fin 2) (q : Fin 32)
    (hr : r.val = min (idx (ix3 k l (0 : Fin 2))).toInt.toNat 1)
    (hq : q.val = min (idx (ix3 k l (1 : Fin 2))).toInt.toNat 31) :
    Host.gather gather_S2x32_S8x128x2_S8x128_n_01_n_n_01_2_11 x idx (ix2 k l) = x (ix2 r q) := by
  unfold Host.gather
  refine congrArg x (funext fun a => Fin.ext ?_)
  match a with
  | ⟨0, _⟩ =>
    show gather_S2x32_S8x128x2_S8x128_n_01_n_n_01_2_11.start (ix2 k l) idx (0 : Fin 2)
        + gather_S2x32_S8x128x2_S8x128_n_01_n_n_01_2_11.batchCoord (ix2 k l) (0 : Fin 2)
        + gather_S2x32_S8x128x2_S8x128_n_01_n_n_01_2_11.offCoord (ix2 k l) (0 : Fin 2) = r.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S2x32_S8x128x2_S8x128_n_01_n_n_01_2_11.startIndexMap by decide)]
    have hsi : gather_S2x32_S8x128x2_S8x128_n_01_n_n_01_2_11.siIdx (ix2 k l)
        ⟨List.idxOf (0 : Fin 2) gather_S2x32_S8x128x2_S8x128_n_01_n_n_01_2_11.startIndexMap,
          List.idxOf_lt_length_iff.2 (by decide)⟩ = ix3 k l (0 : Fin 2) := by
      funext b; refine Fin.ext ?_
      match b with
      | ⟨0, _⟩ => rfl
      | ⟨1, _⟩ => rfl
      | ⟨2, _⟩ => rfl
    rw [hsi]
    exact hr.symm
  | ⟨1, _⟩ =>
    show gather_S2x32_S8x128x2_S8x128_n_01_n_n_01_2_11.start (ix2 k l) idx (1 : Fin 2)
        + gather_S2x32_S8x128x2_S8x128_n_01_n_n_01_2_11.batchCoord (ix2 k l) (1 : Fin 2)
        + gather_S2x32_S8x128x2_S8x128_n_01_n_n_01_2_11.offCoord (ix2 k l) (1 : Fin 2) = q.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S2x32_S8x128x2_S8x128_n_01_n_n_01_2_11.startIndexMap by decide)]
    have hsi : gather_S2x32_S8x128x2_S8x128_n_01_n_n_01_2_11.siIdx (ix2 k l)
        ⟨List.idxOf (1 : Fin 2) gather_S2x32_S8x128x2_S8x128_n_01_n_n_01_2_11.startIndexMap,
          List.idxOf_lt_length_iff.2 (by decide)⟩ = ix3 k l (1 : Fin 2) := by
      funext b; refine Fin.ext ?_
      match b with
      | ⟨0, _⟩ => rfl
      | ⟨1, _⟩ => rfl
      | ⟨2, _⟩ => rfl
    rw [hsi]
    exact hq.symm

variable (m : (ℓ : Loc nD τ sig) → Buf (Elt Ideal) ℓ)

/-- X: the coordinates with the same row-major position. -/
theorem packed_coords (c : Dev nD) (r : Fin 262144) (k : Fin 8) (b : Fin 4) (n : Fin 262144) (d : Fin 2)
    (h : (b.val * 262144 + n.val) * 2 + d.val = r.val * 8 + k.val) :
    (V m c main_v0 : S262144x8.Idx → EReal) (ix2 r k)
      = (m ((c.tc : Thread nD τ).loc main_arg0) : S4x262144x2.Idx → EReal) (ix3 b n d) := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  refine shapeCast_apply _ _ (ix2 r k) (ix3 b n d) ?_
  show (S4x262144x2.rowMajor (ix3 b n d)).val = (S262144x8.rowMajor (ix2 r k)).val
  rw [Shape.rowMajor_val_three, Shape.rowMajor_val_two]
  exact h

/-- B: the bias repeated four times along the 128 columns. -/
theorem tiled_bias (c : Dev nD) (l : Fin 128) :
    (V m c main_v35 : S1x128.Idx → EReal) (ix2 (0 : Fin 1) l)
      = (m ((c.tc : Thread nD τ).loc main_arg2) : S32.Idx → EReal) (ix1 (⟨l.val % 32, Nat.mod_lt _ (by decide)⟩ : Fin 32)) := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  refine (broadcastInDim_apply _ _ _ (ix2 (0 : Fin 1) l) (ix1 l) (fun a => ?_)).trans ?_
  · match a with
    | ⟨0, _⟩ => show l.val = if (128 : ℕ) = 1 then 0 else l.val; rw [if_neg (by decide)]
  refine (shapeCast_apply _ _ (ix1 l) (ix2 (⟨l.val / 32, by have := l.isLt; omega⟩ : Fin 4)
    (⟨l.val % 32, Nat.mod_lt _ (by decide)⟩ : Fin 32)) ?_).trans ?_
  · show (S4x32.rowMajor (ix2 (⟨l.val / 32, by have := l.isLt; omega⟩ : Fin 4) (⟨l.val % 32, Nat.mod_lt _ (by decide)⟩ : Fin 32))).val
      = (S128.rowMajor (ix1 l)).val
    rw [Shape.rowMajor_val_two, Shape.rowMajor_val_one]
    show l.val / 32 * 32 + l.val % 32 = l.val
    omega
  refine (broadcastInDim_apply _ _ _ _ (ix2 (0 : Fin 1) (⟨l.val % 32, Nat.mod_lt _ (by decide)⟩ : Fin 32)) (fun a => ?_)).trans ?_
  · match a with
    | ⟨0, _⟩ => show 0 = if (1 : ℕ) = 1 then 0 else l.val / 32; rw [if_pos rfl]
    | ⟨1, _⟩ => show l.val % 32 = if (32 : ℕ) = 1 then 0 else l.val % 32; rw [if_neg (by decide)]
  refine shapeCast_apply _ _ _ (ix1 (⟨l.val % 32, Nat.mod_lt _ (by decide)⟩ : Fin 32)) ?_
  show (S32.rowMajor (ix1 (⟨l.val % 32, Nat.mod_lt _ (by decide)⟩ : Fin 32))).val
    = (S1x32.rowMajor (ix2 (0 : Fin 1) (⟨l.val % 32, Nat.mod_lt _ (by decide)⟩ : Fin 32))).val
  rw [Shape.rowMajor_val_one, Shape.rowMajor_val_two]
  show l.val % 32 = 0 * 32 + l.val % 32
  omega

set_option maxHeartbeats 4000000 in
/-- S: the mask times the gathered entry of W. -/
theorem packed_matrix (c : Dev nD) (k : Fin 8) (l : Fin 128) :
    (V m c main_v31 : S8x128.Idx → EReal) (ix2 k l)
      = (if l.val / 32 = k.val / 2 then (1 : EReal) else 0)
        * (m ((c.tc : Thread nD τ).loc main_arg1) : S2x32.Idx → EReal)
            (ix2 (⟨k.val % 2, Nat.mod_lt _ (by decide)⟩ : Fin 2) (⟨l.val % 32, Nat.mod_lt _ (by decide)⟩ : Fin 32)) := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  refine (mulf_apply _ _ _).trans (congrArg₂ (· * ·) ?_ (gather_apply _ _ k l _ _ ?_ ?_))
  · -- the mask: both floor-divisions evaluated over the 8 × 128 indices
    simp only [Cert.LibTypedRef.ofBuf_toBuf, Cert.LibTypedRef.toBuf_ofBuf, id_eq]
    generalize hM : (cmpi CmpIPredicate.eq _ _ : IVec S8x128 1) = M
    have hMv : ∀ (k : Fin 8) (l : Fin 128), M (ix2 k l) = if l.val / 32 = k.val / 2 then 1#1 else 0#1 := by
      subst hM
      decide +kernel
    show (((M (ix2 k l)).toNat : ℝ) : EReal) = _
    rw [hMv]
    split <;> simp
  · -- the first start index: k mod 2
    rw [concatenate_pair_apply_left (t := S8x128x2) (s₁ := S8x128x1) (s₂ := S8x128x1) (2 : Fin 3) _ _ _ (ix3 k l (0 : Fin 2)) rfl (ix3 k l (0 : Fin 1))
      (fun b => by match b with | ⟨0, _⟩ => rfl | ⟨1, _⟩ => rfl | ⟨2, _⟩ => rfl)]
    after_results_simp
    simp only [Cert.LibTypedRef.ofBuf_toBuf, Cert.LibTypedRef.toBuf_ofBuf, id_eq]
    revert k l
    decide +kernel
  · -- the second start index: l mod 32
    rw [concatenate_pair_apply_right (t := S8x128x2) (s₁ := S8x128x1) (s₂ := S8x128x1) (2 : Fin 3) _ _ _ (ix3 k l (1 : Fin 2)) rfl rfl (ix3 k l (0 : Fin 1))
      (fun b hb => by
        match b with
        | ⟨0, _⟩ => rfl
        | ⟨1, _⟩ => rfl
        | ⟨2, _⟩ => exact absurd rfl hb) rfl]
    after_results_simp
    simp only [Cert.LibTypedRef.ofBuf_toBuf, Cert.LibTypedRef.toBuf_ofBuf, id_eq]
    revert k l
    decide +kernel

end Cert.KernelIdeal.HostPre

end
-- ==== Proof.Packing.lean ====
/-
  Four points packed in a row: the masked sum over eight columns is the sum over one point's two coordinates.

  A row holds the coordinates of four consecutive points, x (2 g + d) being coordinate d of the row's point g.  The
  packed matrix has, in the column block of point g, the weight w (k mod 2) in the two rows k = 2 g, 2 g + 1 of that
  point and zero in the six other rows.  So the sum over the eight rows keeps exactly the two terms of point g.  On the
  extended reals a zero factor annihilates any factor and addition is commutative and associative, so no finiteness is
  needed.
-/
import Mathlib.Data.EReal.Basic
import Mathlib.Algebra.BigOperators.Fin
import Mathlib.Tactic

open scoped BigOperators

namespace Cert.Packing

/-- Σ over the 8 rows k of x k · ([g = k / 2] · w (k mod 2)) is Σ over d < 2 of x (2 g + d) · w d. -/
theorem sum_packed (x : Fin 8 → EReal) (w : Fin 2 → EReal) (g : Fin 4) :
    ∑ k : Fin 8, x k * ((if g.val = k.val / 2 then (1 : EReal) else 0) * w ⟨k.val % 2, Nat.mod_lt _ (by decide)⟩)
      = ∑ d : Fin 2, x ⟨2 * g.val + d.val, by have := g.isLt; have := d.isLt; omega⟩ * w d := by
  rw [Fin.sum_univ_eight, Fin.sum_univ_two]
  fin_cases g <;> simp <;> rfl

end Cert.Packing
-- ==== Proof.Bridge.lean ====
/-
  The kernel program's result is the reference's function of the arguments.

  The program's result is the launch's output array (262144 × 128) read as 4 × 262144 × 32 in the same row-major order.
  Write P = 262144 b + n for the point of result entry (b, n, ch).  Its position 32 P + ch in the output is row
  R = P / 4, column L = 32 (P mod 4) + ch: point P is the g-th of the four points packed in row R, g = P mod 4, and
  L / 32 = g, L mod 32 = ch.  The output entry is sin (Σ k < 8, X (R, k) · S (k, L) + B (0, L)).  With
  S (k, L) = [g = k / 2] · W (k mod 2, ch) the sum keeps the two terms k = 2 g + d, where X (R, 2 g + d) is the
  coordinate d of point P (position 8 R + 2 g + d = 2 P + d of the coordinates), and B (0, L) = b (ch).  So the entry is
  sin (Σ d < 2, coords (b, n, d) · W (d, ch) + b (ch)), which is the reference's entry.
-/
import proofs.«163815_g5892695130287_cont_9to1c4b_175_2_alg».proof.Proof.Gen.KernelIdeal.Frame
import proofs.«163815_g5892695130287_cont_9to1c4b_175_2_alg».proof.Proof.Gen.ReferenceIdeal.Read
import proofs.«163815_g5892695130287_cont_9to1c4b_175_2_alg».proof.Proof.Blocks
import proofs.«163815_g5892695130287_cont_9to1c4b_175_2_alg».proof.Proof.HostPre
import proofs.«163815_g5892695130287_cont_9to1c4b_175_2_alg».proof.Proof.Packing
import Idealize.ShloMosaic.Lib.StableHlo.Run
import Idealize.ShloMosaic.Lib.Pipeline.Value
import Idealize.ShloMosaic.Lib.ValueIdx

noncomputable section

namespace Cert.KernelIdeal.Bridge

open Cert.KernelIdeal Cert.KernelIdeal.Gen Idealize.ShloMosaic Idealize.ShloMosaic.TcCoe Idealize.SL.Sem
open Idealize.ShloMosaic.StableHlo Idealize.ShloMosaic.ValueIdx

/-- The output entry of a packed row is the reference's entry of its point: for ANY three arrays X, S, B that are the packed
    coordinates, the masked weights and the repeated bias of coords, W, b. -/
theorem entry_eq (X : S262144x8.Idx → EReal) (S : S8x128.Idx → EReal) (B : S1x128.Idx → EReal)
    (x0 : S4x262144x2.Idx → EReal) (x1 : S2x32.Idx → EReal) (x2 : S32.Idx → EReal)
    (hX : ∀ (r : Fin 262144) (k : Fin 8) (b : Fin 4) (n : Fin 262144) (d : Fin 2),
      (b.val * 262144 + n.val) * 2 + d.val = r.val * 8 + k.val → X (ix2 r k) = x0 (ix3 b n d))
    (hS : ∀ (k : Fin 8) (l : Fin 128), S (ix2 k l) = (if l.val / 32 = k.val / 2 then (1 : EReal) else 0)
      * x1 (ix2 (⟨k.val % 2, Nat.mod_lt _ (by decide)⟩ : Fin 2) (⟨l.val % 32, Nat.mod_lt _ (by decide)⟩ : Fin 32)))
    (hB : ∀ l : Fin 128, B (ix2 (0 : Fin 1) l) = x2 (ix1 (⟨l.val % 32, Nat.mod_lt _ (by decide)⟩ : Fin 32)))
    (b : Fin 4) (n : Fin 262144) (ch : Fin 32) (R : Fin 262144) (L : Fin 128) (g : Fin 4)
    (hR : R.val = (b.val * 262144 + n.val) / 4) (hL : L.val = (b.val * 262144 + n.val) % 4 * 32 + ch.val)
    (hg : g.val = (b.val * 262144 + n.val) % 4) :
    Blocks.entry X S B R L = Cert.ReferenceIdeal.Read.val_main_v4 (F := Ideal) x0 x1 x2 (ix3 b n ch) := by
  have hch := ch.isLt
  unfold Blocks.entry
  rw [Cert.ReferenceIdeal.Read.val_main_v4_apply, Cert.ReferenceIdeal.Read.val_main_v3_apply,
    Cert.ReferenceIdeal.Read.val_main_v0_apply, Cert.ReferenceIdeal.Read.val_main_v2_apply,
    Cert.ReferenceIdeal.Read.val_main_v1_apply]
  rw [Ideal.hostUnary_sin_def, Ideal.addf_def]
  refine congrArg Ideal.sin (congrArg₂ (fun u v : EReal => u + v) ?_ ?_)
  · -- the eight-term sum keeps the point's two terms
    have hS' : ∀ k : Fin 8, S (ix2 k L) = (if g.val = k.val / 2 then (1 : EReal) else 0)
        * x1 (ix2 (⟨k.val % 2, Nat.mod_lt _ (by decide)⟩ : Fin 2) ch) := by
      intro k
      have e1 : L.val / 32 = g.val := by omega
      have e2 : (⟨L.val % 32, Nat.mod_lt _ (by decide)⟩ : Fin 32) = ch := Fin.ext (by show L.val % 32 = ch.val; omega)
      rw [hS k L, e1, e2]
    refine (Finset.sum_congr rfl fun k _ => congrArg (fun s : EReal => X (ix2 R k) * s) (hS' k)).trans ?_
    refine (Cert.Packing.sum_packed (fun k => X (ix2 R k)) (fun d => x1 (ix2 d ch)) g).trans ?_
    refine Finset.sum_congr rfl fun d _ => congrArg₂ (fun u v : EReal => u * v) ?_ ?_
    · have hd := d.isLt
      refine (hX R _ b n d (by show (b.val * 262144 + n.val) * 2 + d.val = R.val * 8 + (2 * g.val + d.val); omega)).trans ?_
      refine congrArg x0 (funext fun a => Fin.ext ?_)
      match a with
      | ⟨0, _⟩ => rfl
      | ⟨1, _⟩ => rfl
      | ⟨2, _⟩ => rfl
    · refine congrArg x1 (funext fun a => Fin.ext ?_)
      match a with
      | ⟨0, _⟩ => rfl
      | ⟨1, _⟩ => rfl
  · -- the bias column
    refine (hB L).trans ?_
    refine congrArg x2 (funext fun a => Fin.ext ?_)
    match a with
    | ⟨0, _⟩ => show L.val % 32 = ch.val; omega

variable (m : (ℓ : Loc nD τ sig) → Buf (Elt Ideal) ℓ)

/-- The program's last line reads the launch's output array in the same row-major order. -/
theorem result_read (c : Dev nD) (b : Fin 4) (n : Fin 262144) (ch : Fin 32) (R : Fin 262144) (L : Fin 128)
    (h : R.val * 128 + L.val = (b.val * 262144 + n.val) * 32 + ch.val) :
    (Pipeline.afterTail₀ cfgs (dats m) 0 (V0 m) [hostOps1] c main_v37 : S4x262144x32.Idx → EReal) (ix3 b n ch)
      = Blocks.rowsOf (V m c main_v0) (V m c main_v31) (V m c main_v35) (ix2 R L) := by
  unfold Pipeline.afterTail₀
  show StableHlo.after hostOps1 _ (Proc.devRef .tc main_v37) (ix3 b n ch) = _
  after_results
  rw [Pipeline.withArrays_arr spec0 launch0.win.arr_inj c _ _ 3]
  show shapeCast S4x262144x32 ((dats m 0 c).arrAt 3 cfg0.N) shapeCasts_S262144x128_S4x262144x32 (ix3 b n ch) = _
  rw [Blocks.final m c]
  refine shapeCast_apply _ _ (ix3 b n ch) (ix2 R L) ?_
  show (S262144x128.rowMajor (ix2 R L)).val = (S4x262144x32.rowMajor (ix3 b n ch)).val
  rw [Shape.rowMajor_val_two, Shape.rowMajor_val_three]
  exact h

/-- Entry (b, n, ch) of the program's result is the reference's entry. -/
theorem result_apply (c : Dev nD) (b : Fin 4) (n : Fin 262144) (ch : Fin 32) :
    (Pipeline.afterTail₀ cfgs (dats m) 0 (V0 m) [hostOps1] c main_v37 : S4x262144x32.Idx → EReal) (ix3 b n ch)
      = Cert.ReferenceIdeal.Read.val_main_v4 (F := Ideal) (m ((c.tc : Thread nD τ).loc main_arg0))
          (m ((c.tc : Thread nD τ).loc main_arg1)) (m ((c.tc : Thread nD τ).loc main_arg2)) (ix3 b n ch) := by
  have hb := b.isLt
  have hn := n.isLt
  have hch := ch.isLt
  -- the row, the column and the place in the row of the entry's point
  obtain ⟨R, hR⟩ : ∃ R : Fin 262144, R.val = (b.val * 262144 + n.val) / 4 := ⟨⟨(b.val * 262144 + n.val) / 4, by omega⟩, rfl⟩
  obtain ⟨L, hL⟩ : ∃ L : Fin 128, L.val = (b.val * 262144 + n.val) % 4 * 32 + ch.val :=
    ⟨⟨(b.val * 262144 + n.val) % 4 * 32 + ch.val, by omega⟩, rfl⟩
  obtain ⟨g, hg⟩ : ∃ g : Fin 4, g.val = (b.val * 262144 + n.val) % 4 := ⟨⟨(b.val * 262144 + n.val) % 4, by omega⟩, rfl⟩
  refine (result_read m c b n ch R L (by omega)).trans ?_
  rw [Blocks.rowsOf_ix2]
  exact entry_eq (V m c main_v0) (V m c main_v31) (V m c main_v35) (m ((c.tc : Thread nD τ).loc main_arg0))
    (m ((c.tc : Thread nD τ).loc main_arg1)) (m ((c.tc : Thread nD τ).loc main_arg2))
    (HostPre.packed_coords m c) (HostPre.packed_matrix m c) (HostPre.tiled_bias m c) b n ch R L g hR hL hg

/-- The program's result array is the reference's function of the three arguments. -/
theorem result_eq (c : Dev nD) :
    Pipeline.afterTail₀ cfgs (dats m) 0 (V0 m) [hostOps1] c main_v37
      = Cert.ReferenceIdeal.Read.val_main_v4 (F := Ideal) (m ((c.tc : Thread nD τ).loc main_arg0))
          (m ((c.tc : Thread nD τ).loc main_arg1)) (m ((c.tc : Thread nD τ).loc main_arg2)) := by
  refine funext fun (i : S4x262144x32.Idx) => ?_
  obtain ⟨b, n, ch, rfl⟩ : ∃ (b : Fin 4) (n : Fin 262144) (ch : Fin 32), i = ix3 b n ch := ⟨i 0, i 1, i 2, eq_ix3 i⟩
  exact result_apply m c b n ch

end Cert.KernelIdeal.Bridge

end
-- ==== Proof.lean ====
/-
  sin (coords · W + b), computed with four points packed per 128-lane row, against the plain einsum.

  The kernel program reshapes the coordinates (4 × 262144 × 2) to 262144 rows of four points' eight numbers, builds an
  8 × 128 matrix that holds W four times on its block diagonal (a 0/1 mask times gathered entries of W) and the bias
  repeated four times, lets one launch compute sin (X S + B) row block by row block, and reads the 262144 × 128 output
  back as 4 × 262144 × 32.  The reference is sin (einsum (coords, W) + b).  Over the extended reals the two results agree
  entry by entry: the masked eight-term sum of a packed row is the two-term sum of its point (a zero factor annihilates,
  sums commute), the sine is the same function on both sides, and every other step is a re-indexing.  The precondition
  is not used.

  The modules: Payload (the body's stored value at an entry), Blocks (the launch's output array as one function),
  HostPre (the three arrays the launch reads, from the arguments), Packing (the sum law), Bridge (the program's result is
  the reference's function); here, the five claims.
-/
import proofs.«163815_g5892695130287_cont_9to1c4b_175_2_alg».proof.Defs
import proofs.«163815_g5892695130287_cont_9to1c4b_175_2_alg».proof.Proof.Gen.Kernel
import proofs.«163815_g5892695130287_cont_9to1c4b_175_2_alg».proof.Proof.Gen.Kernel.Frame
import proofs.«163815_g5892695130287_cont_9to1c4b_175_2_alg».proof.Proof.Gen.KernelIdeal
import proofs.«163815_g5892695130287_cont_9to1c4b_175_2_alg».proof.Proof.Gen.KernelIdeal.Frame
import proofs.«163815_g5892695130287_cont_9to1c4b_175_2_alg».proof.Proof.Gen.ReferenceIdeal
import proofs.«163815_g5892695130287_cont_9to1c4b_175_2_alg».proof.Proof.Gen.Pre_finite_inputs
import proofs.«163815_g5892695130287_cont_9to1c4b_175_2_alg».proof.Proof.Gen.ReferenceIdeal.Run
import proofs.«163815_g5892695130287_cont_9to1c4b_175_2_alg».proof.Proof.Gen.ReferenceIdeal.Read
import proofs.«163815_g5892695130287_cont_9to1c4b_175_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_kernel : @Cert.frame_Kernel Cert.Kernel.Gen.facts Cert.Pre_finite_inputs.Gen.facts :=
  fun m ρ _ => Cert.Kernel.Gen.frame m ρ

/-- So does its reading over the extended reals. -/
theorem frame_kernel_ideal : @Cert.frame_KernelIdeal Cert.KernelIdeal.Gen.facts Cert.Pre_finite_inputs.Gen.facts :=
  fun m ρ _ => Cert.KernelIdeal.Gen.frame m ρ

/-- The reference runs and leaves its arguments alone: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the reference's function of the arguments in their result. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v4 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Gen.run_main m ρ)
    · exact ((h c).2 Cert.KernelIdeal.main_v37
        (Pipeline.mem_restRefs_of Cert.KernelIdeal.main_v37 (by decide) (by decide))).trans
        (Cert.KernelIdeal.Bridge.result_eq m c)
    · exact ((h c).2 Cert.KernelIdeal.main_arg0
        (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1
        (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2
        (Pipeline.mem_restRefs_of Cert.KernelIdeal.main_arg2 (by decide) (by decide))).trans
        (Cert.KernelIdeal.Gen.W_main_arg2 m (Cert.KernelIdeal.Gen.dats m) c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v4_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
